-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S32x1x4 : Shape := ⟨3, ![32, 1, 4]⟩
abbrev S32x1 : Shape := ⟨2, ![32, 1]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel
  bcast_S_S32x1x4 : S_.BroadcastsInDim S32x1x4 (![] : Fin 0 → Fin S32x1x4.rank)
  reducesTo_S32x1x4_S_d0_1_2 : S32x1x4.ReducesTo [0, 1, 2] S_
  bcast_S_S32x1 : S_.BroadcastsInDim S32x1 (![] : Fin 0 → Fin S32x1.rank)
  reducesTo_S32x1_S_d0_1 : S32x1.ReducesTo [0, 1] S_

variable [Facts]

def fn {F : FTy → Type} [FloatOps F] (main_arg0 : FVec F S2000000x4 .f32) (main_arg1 : FVec F S32x1x4 .f32) (main_arg2 : FVec F S32x1 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  let main_v4 : FVec F S32x1x4 .f32 := Host.absf main_arg1
  let main_cst_0 : FVec F S_ .f32 := constant S_ .f32 0x7F800000#32
  let main_v5 : FVec F S32x1x4 .f32 := broadcastInDim S32x1x4 ![] bcast_S_S32x1x4 main_cst_0
  let main_v6 : IVec S32x1x4 1 := cmpf .olt main_v4 main_v5
  let main_c_1 : IVec S_ 1 := constantI S_ 1 1#1
  let main_v7 : IVec S_ 1 := (fun x v => Host.reduce IntOp.andi x v reducesTo_S32x1x4_S_d0_1_2 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  main_v13
-- ==== Kernel.lean ====
abbrev S2000000x4 : Shape := ⟨2, ![2000000, 4]⟩
abbrev S32x1x4 : Shape := ⟨3, ![32, 1, 4]⟩
abbrev S32x1 : Shape := ⟨2, ![32, 1]⟩
abbrev S4x2000000 : Shape := ⟨2, ![4, 2000000]⟩
abbrev S32x4 : Shape := ⟨2, ![32, 4]⟩
abbrev S32x2000000 : Shape := ⟨2, ![32, 2000000]⟩
abbrev S4x65536 : Shape := ⟨2, ![4, 65536]⟩
abbrev S32x65536 : Shape := ⟨2, ![32, 65536]⟩
abbrev S1x65536 : Shape := ⟨2, ![1, 65536]⟩
abbrev S32x2000000x1 : Shape := ⟨3, ![32, 2000000, 1]⟩

abbrev nBuf : Space → Nat
  | .hbm => 7
  | .vmem => 6
  | .smem => 0
  | _ => 0

abbrev bufTy : (tb : Table) → Fin (tcTables nBuf tb) → BufTy
  | .hbm, ⟨0, _⟩ => ⟨S2000000x4, .f32⟩
  | .hbm, ⟨1, _⟩ => ⟨S32x1x4, .f32⟩
  | .hbm, ⟨2, _⟩ => ⟨S32x1, .f32⟩
  | .hbm, ⟨3, _⟩ => ⟨S4x2000000, .f32⟩
  | .hbm, ⟨4, _⟩ => ⟨S32x4, .f32⟩
  | .hbm, ⟨5, _⟩ => ⟨S32x2000000, .f32⟩
  | .hbm, ⟨6, _⟩ => ⟨S32x2000000x1, .f32⟩
  | .local _ .vmem, ⟨0, _⟩ => ⟨S4x65536, .f32⟩
  | .local _ .vmem, ⟨1, _⟩ => ⟨S4x65536, .f32⟩
  | .local _ .vmem, ⟨2, _⟩ => ⟨S32x4, .f32⟩
  | .local _ .vmem, ⟨3, _⟩ => ⟨S32x1, .f32⟩
  | .local _ .vmem, ⟨4, _⟩ => ⟨S32x65536, .f32⟩
  | .local _ .vmem, ⟨5, _⟩ => ⟨S32x65536, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2000000x4_S4x2000000_1_0 : S2000000x4.Transposes [1, 0] S4x2000000
  shapeCasts_S32x1x4_S32x4 : S32x1x4.ShapeCasts S32x4
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  slices_S32x4_o0_0_S32x1 : S32x4.Slices ![0, 0] S32x1
  slices_S4x65536_o0_0_S1x65536 : S4x65536.Slices ![0, 0] S1x65536
  broadcasts_S32x1_S32x65536 : S32x1.Broadcasts S32x65536
  broadcasts_S1x65536_S32x65536 : S1x65536.Broadcasts S32x65536
  slices_S32x4_o0_1_S32x1 : S32x4.Slices ![0, 1] S32x1
  slices_S4x65536_o1_0_S1x65536 : S4x65536.Slices ![1, 0] S1x65536
  slices_S32x4_o0_2_S32x1 : S32x4.Slices ![0, 2] S32x1
  slices_S4x65536_o2_0_S1x65536 : S4x65536.Slices ![2, 0] S1x65536
  slices_S32x4_o0_3_S32x1 : S32x4.Slices ![0, 3] S32x1
  slices_S4x65536_o3_0_S1x65536 : S4x65536.Slices ![3, 0] S1x65536
  inb_S32x65536_S32x65536_0_0 : ∀ a, (![0, 0] : Fin 2 → Nat) a + S32x65536.size a ≤ S32x65536.size a
  h_S32x65536 : 0 < S32x65536.numel
  bcast_S32x2000000_S32x2000000x1_0_1 : S32x2000000.BroadcastsInDim S32x2000000x1 (![0, 1] : Fin 2 → Fin S32x2000000x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x65536.size a < S4x2000000.size a
  hwx0_0 : ∀ i : grid0.Coords, EltTy.bits .f32 = 32 ∨ (Rect.unit (s := S4x2000000) (fun a => cc0_transform_0 i a * S4x65536.size a) (fun a => (Pipeline.Clip.of (cc0_transform_0 i a) (S4x65536.size a) (S4x2000000.size a)).extent (S4x65536.size a)) fun a => Pipeline.Clip.inb (Pipeline.Clip.ok_of (hstart0_0 i a))).WholeWords (EltTy.packing .f32)
  hwxs0_0 : ∀ i : grid0.Coords, EltTy.bits .f32 = 32 ∨ (Rect.unit (s := S4x65536) (fun _ => 0) (fun a => (Pipeline.Clip.of (cc0_transform_0 i a) (S4x65536.size a) (S4x2000000.size a)).extent (S4x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4.size a ≤ S32x4.size a
  hwx0_1 : ∀ i : grid0.Coords, EltTy.bits .f32 = 32 ∨ (Rect.block (s := S32x4) S32x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x65536.size a < S32x2000000.size a
  hwx0_3 : ∀ i : grid0.Coords, EltTy.bits .f32 = 32 ∨ (Rect.unit (s := S32x2000000) (fun a => cc0_transform_3 i a * S32x65536.size a) (fun a => (Pipeline.Clip.of (cc0_transform_3 i a) (S32x65536.size a) (S32x2000000.size a)).extent (S32x65536.size a)) fun a => Pipeline.Clip.inb (Pipeline.Clip.ok_of (hstart0_3 i a))).WholeWords (EltTy.packing .f32)
  hwxs0_3 : ∀ i : grid0.Coords, EltTy.bits .f32 = 32 ∨ (Rect.unit (s := S32x65536) (fun _ => 0) (fun a => (Pipeline.Clip.of (cc0_transform_3 i a) (S32x65536.size a) (S32x2000000.size a)).extent (S32x65536.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_v0) S4x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S32x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S32x65536.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S32x1x4 : Shape := ⟨3, ![32, 1, 4]⟩
abbrev S32x1 : Shape := ⟨2, ![32, 1]⟩
abbrev S32x1x2000000 : Shape := ⟨3, ![32, 1, 2000000]⟩
abbrev S32x2000000x1 : Shape := ⟨3, ![32, 2000000, 1]⟩
abbrev S32x1x1 : Shape := ⟨3, ![32, 1, 1]⟩

abbrev nBuf : Space → Nat
  | .hbm => 8
  | .vmem => 0
  | .smem => 0
  | _ => 0

abbrev bufTy : (tb : Table) → Fin (tcTables nBuf tb) → BufTy
  | .hbm, ⟨0, _⟩ => ⟨S2000000x4, .f32⟩
  | .hbm, ⟨1, _⟩ => ⟨S32x1x4, .f32⟩
  | .hbm, ⟨2, _⟩ => ⟨S32x1, .f32⟩
  | .hbm, ⟨3, _⟩ => ⟨S32x1x2000000, .f32⟩
  | .hbm, ⟨4, _⟩ => ⟨S32x2000000x1, .f32⟩
  | .hbm, ⟨5, _⟩ => ⟨S32x1x1, .f32⟩
  | .hbm, ⟨6, _⟩ => ⟨S32x2000000x1, .f32⟩
  | .hbm, ⟨7, _⟩ => ⟨S32x2000000x1, .f32⟩
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S32x1x2000000_S32x2000000x1_0_2_1 : S32x1x2000000.Transposes [0, 2, 1] S32x2000000x1
  bcast_S32x1_S32x1x1_0_2 : S32x1.BroadcastsInDim S32x1x1 (![0, 2] : Fin 2 → Fin S32x1x1.rank)
  bcast_S32x1x1_S32x2000000x1_0_1_2 : S32x1x1.BroadcastsInDim S32x2000000x1 (![0, 1, 2] : Fin 3 → Fin S32x2000000x1.rank)
  dot_S32x1x4_S2000000x4_S32x1x2000000_2_1_01_0_n_n_wf : DotDims.WF S32x1x4 S2000000x4 S32x1x2000000 [2] [1] [0, 1] [0] [] []

variable [Facts₀]

def dot_S32x1x4_S2000000x4_S32x1x2000000_2_1_01_0_n_n : DotDims S32x1x4 S2000000x4 S32x1x2000000 where
  lhsContracting := [2]
  rhsContracting := [1]
  lhsNonContracting := [0, 1]
  rhsNonContracting := [0]
  lhsBatch := []
  rhsBatch := []
  wf := dot_S32x1x4_S2000000x4_S32x1x2000000_2_1_01_0_n_n_wf

class Facts : Prop extends Facts₀ where

variable [Facts]
-- ==== Proof.EntryBits.lean ====
/-
  One entry of the block the kernel body stores. The body holds a 4×65536 block `x` of the transposed samples
  (one feature per row, one sample per lane), the 32×4 weights `w` (one head per row) and the 32×1 biases `b`.
  It multiplies column `d` of `w`, spread over the lanes, by row `d` of `x`, spread over the heads, for
  `d = 0, 1, 2, 3`, adds the four products from the left and adds the bias column spread over the lanes. So at
  head `p` and lane `q` the stored value is

      (((w p 0 · x 0 q + w p 1 · x 1 q) + w p 2 · x 2 q) + w p 3 · x 3 q) + b p 0

  at any float instance: every operation of the body is a slice, a broadcast or a lane-wise product or sum.
  In particular the entry reads `x` at lane `q` only.
-/
import proofs.«159877_j29798483099653_1_alg».proof.Proof.Gen.Kernel.Skeleton
import Idealize.ShloMosaic.Lib.Pipeline.Value
import Idealize.ShloMosaic.Lib.ValueIdx
import Idealize.ShloMosaic.Lib.ValueLayout

noncomputable section

namespace Cert.Kernel.Entry

open Cert.Kernel Cert.Kernel.Gen Idealize.ShloMosaic Idealize.ShloMosaic.ValueIdx

variable {F : FTy → Type} [FloatOps F]

/-- An `[a, 1]` column spread over `[a, b]` reads, at `(p, c)`, the column at row `p`. -/
theorem column_over_lanes {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The value the body stores at head `p` and lane `q`, from the three blocks it loaded. -/
def entry (x : Vec F S4x65536 .f32) (w : Vec F S32x4 .f32) (b : Vec F S32x1 .f32) (p : Fin 32) (q : Fin 65536) : F .f32 :=
  FloatOps.addf
    (FloatOps.addf
      (FloatOps.addf
        (FloatOps.addf
          (FloatOps.mulf (w (ix2 p (0 : Fin 4))) (x (ix2 (0 : Fin 4) q)))
          (FloatOps.mulf (w (ix2 p (1 : Fin 4))) (x (ix2 (1 : Fin 4) q))))
        (FloatOps.mulf (w (ix2 p (2 : Fin 4))) (x (ix2 (2 : Fin 4) q))))
      (FloatOps.mulf (w (ix2 p (3 : Fin 4))) (x (ix2 (3 : Fin 4) q))))
    (b (ix2 p (0 : Fin 1)))

/-- Column `d` of the weights spread over the lanes, read at `(p, q)`. -/
theorem weight_column (w : Vec F S32x4 .f32) (d : ℕ) (hd : d < 4) (hs : S32x4.Slices ![0, d] S32x1)
    (hb : S32x1.Broadcasts S32x65536) (p : Fin 32) (q : Fin 65536) :
    broadcastTo S32x65536 (extractStridedSlice S32x1 ![0, d] w hs) hb (ix2 p q) = w (ix2 p (⟨d, hd⟩ : Fin 4)) :=
  (column_over_lanes (a := 32) (b := 65536) _ hb p q).trans
    (slice2_axis1_apply (n0 := 32) (n1 := 4) (m := 1) d w hs p (0 : Fin 1) ⟨d, hd⟩ rfl)

/-- Row `d` of the sample block spread over the heads, read at `(p, q)`. -/
theorem sample_row (x : Vec F S4x65536 .f32) (d : ℕ) (hd : d < 4) (hs : S4x65536.Slices ![d, 0] S1x65536)
    (hb : S1x65536.Broadcasts S32x65536) (p : Fin 32) (q : Fin 65536) :
    broadcastTo S32x65536 (extractStridedSlice S1x65536 ![d, 0] x hs) hb (ix2 p q) = x (ix2 (⟨d, hd⟩ : Fin 4) q) :=
  (broadcastTo_1b_ab_apply (a := 32) (b := 65536) _ hb p q).trans
    (slice2_axis0_apply (n0 := 4) (n1 := 65536) (m := 1) d x hs (0 : Fin 1) q ⟨d, hd⟩ rfl)

/-- The stored block at head `p` and lane `q` is `entry` there. -/
theorem k0_pay1_entry (x : Vec F S4x65536 .f32) (w : Vec F S32x4 .f32) (b : Vec F S32x1 .f32) (p : Fin 32) (q : Fin 65536) :
    k0_pay1 x w b (ix2 p q) = entry x w b p q := by
  unfold k0_pay1 entry
  simp only [addf, mulf, shapeCast_self]
  rw [weight_column w 0 (by decide), weight_column w 1 (by decide), weight_column w 2 (by decide), weight_column w 3 (by decide),
    sample_row x 0 (by decide), sample_row x 1 (by decide), sample_row x 2 (by decide), sample_row x 3 (by decide),
    column_over_lanes (a := 32) (b := 65536) b _ p q]
  rfl

/-- Two sample blocks that agree on lane `q` give the same stored value on that lane. -/
theorem k0_pay1_lane (x x' : Vec F S4x65536 .f32) (w : Vec F S32x4 .f32) (b : Vec F S32x1 .f32) (p : Fin 32) (q : Fin 65536)
    (h : ∀ d : Fin 4, x (ix2 d q) = x' (ix2 d q)) : k0_pay1 x w b (ix2 p q) = k0_pay1 x' w b (ix2 p q) := by
  rw [k0_pay1_entry, k0_pay1_entry]
  unfold entry
  rw [h 0, h 1, h 2, h 3]

end Cert.Kernel.Entry

end
-- ==== Proof.FrameBits.lean ====
/-
  The kernel body as the pipeline calls it at one grid point, and the pipeline's run around it.

  At a point the body finds, in the current staging buffers, a 4×65536 block of the transposed samples, the
  32×4 weights and the 32×1 biases, and stores one 32×65536 block of results: the three buffers it reads it
  leaves as it found them, and the result buffer ends at the stored block (`stored`, which is the body's one
  payload of the three loads). The grid's 31 blocks of 65536 lanes overhang the 2000000 samples: the last block
  has 33920 lanes inside the arrays, and past them the sample buffer holds words nothing names. A stored entry
  reads the samples on its own lane only (`Entry.k0_pay1_lane`), so on the lanes inside the array the stored
  block does not depend on those words — which is all the pipeline asks of a window whose blocks may overhang.
-/
import proofs.«159877_j29798483099653_1_alg».proof.Proof.Gen.Kernel.Frame
import proofs.«159877_j29798483099653_1_alg».proof.Proof.Gen.Kernel.Skeleton
import proofs.«159877_j29798483099653_1_alg».proof.Proof.EntryBits
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is its whole buffer -/

abbrev rx : Rect S4x65536 := Rect.unit (s := S4x65536) ![0, 0] S4x65536.size inb_S4x65536_S4x65536_0_0
abbrev rw_ : Rect S32x4 := Rect.unit (s := S32x4) ![0, 0] S32x4.size inb_S32x4_S32x4_0_0
abbrev rb : Rect S32x1 := Rect.unit (s := S32x1) ![0, 0] S32x1.size inb_S32x1_S32x1_0_0
abbrev ro : Rect S32x65536 := Rect.unit (s := S32x65536) ![0, 0] S32x65536.size inb_S32x65536_S32x65536_0_0

theorem hz : (![0, 0] : Fin 2 → Nat) = fun _ => 0 := funext fun a => by fin_cases a <;> rfl

/-- What the result buffer holds after the body, from what the three input buffers hold: its one store. -/
def stored (x : Vec F S4x65536 .f32) (w : Vec F S32x4 .f32) (b : Vec F S32x1 .f32) : Vec F S32x65536 .f32 :=
  View.canon [⟨ro, k0_pay1 (View.ld x rx) (View.ld w rw_) (View.ld b rb)⟩]

/-- The store and the loads are of whole buffers: the stored block is the payload of the buffers' contents. -/
theorem stored_eq (x : Vec F S4x65536 .f32) (w : Vec F S32x4 .f32) (b : Vec F S32x1 .f32) : stored x w b = k0_pay1 x w b := by
  unfold stored
  rw [View.canon_unit_zero hz]
  simp only [View.ld_unit_zero (S := S4x65536) hz, View.ld_unit_zero (S := S32x4) hz, View.ld_unit_zero (S := S32x1) hz]

set_option maxHeartbeats 1000000 in
/-- The body on whole staging memrefs, the inputs' at read contents and the result's at anything, runs to the
    continuation holding the inputs' as they were and the result's at `stored` of them. -/
theorem sound_kernel (c : Dev nD) (E : Set ℕ) (i : grid0.Coords)
    (arg1 : Memref sig .tc .vmem S4x65536 .f32) (harg1 : arg1.IsWhole) (arg2 : Memref sig .tc .vmem S32x4 .f32) (harg2 : arg2.IsWhole)
    (arg3 : Memref sig .tc .vmem S32x1 .f32) (harg3 : arg3.IsWhole) (arg4 : Memref sig .tc .vmem S32x65536 .f32) (harg4 : arg4.IsWhole)
    (x0 : Vec F S4x65536 .f32) (x1 : Vec F S32x4 .f32) (x2 : Vec F S32x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__dense_mlp_kernel i arg1 harg1 arg2 harg2 arg3 harg3 arg4 harg4) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero hz inb_S32x65536_S32x65536_0_0 y⟩)

/-! ## Where the blocks sit: the cuts at the arrays' end, decided over the grid -/

/-- The sample window keeps all four feature rows at every point and cuts its lanes exactly as the result window
    does; the result window keeps all 32 heads. -/
theorem cuts (t : Fin cfg0.N) :
    (cfg0.win 0).xsize (cfg0.grid.coords t) 0 = 4
      ∧ (cfg0.win 0).xsize (cfg0.grid.coords t) 1 = (cfg0.win 3).xsize (cfg0.grid.coords t) 1 :=
  (by decide +kernel : ∀ t : Fin grid0.N, win0_0.xsize (grid0.coords t) 0 = 4
      ∧ win0_0.xsize (grid0.coords t) 1 = win0_3.xsize (grid0.coords t) 1) t

/-! ## The pipeline's proof data -/

/-- The sample buffer's contents after the body at point `t`, as the proof data names them: the block of the
    transposed samples on the lanes inside the array, and a word of the proof's choosing past them (the pipeline asks
    nothing of those lanes). -/
def samples (c : Dev nD) (t : Fin cfg0.N) : S4x65536.Idx → Elt F .f32 :=
  (cfg0.win 0).fill (cfg0.grid.coords t) (fun _ => Scalar.ofBits .f32 0#32) (iblk m c 0 t)

/-- The proof data of the one pipeline on core `c`: the arrays as the region finds them; after the body at point
    `t` the sample buffer at `samples`, the weights' and biases' at their blocks, the result's at `stored` of those;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => samples m c t
    | ⟨1, _⟩ => iblk m c 1 t
    | ⟨2, _⟩ => iblk m c 2 t
    | ⟨3, _⟩ => stored (samples m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = samples m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (samples m c t) (iblk m c 1 t) (iblk m c 2 t) := by dsimp only [dats]

/-- The sample window is fetched at every point: the body finds the block on the lanes inside the array and, past
    them, whatever the fetch's overwrite left (`d`). -/
theorem before_0 (c : Dev nD) (t : Fin cfg0.N) (d) :
    (dats m 0 c).before 0 t d = (cfg0.win 0).fill (cfg0.grid.coords t) d (iblk m c 0 t) := by
  unfold Dat.before; rw [if_pos (fetch0_0 t)]
  unfold Dat.fetched Dat.blockOf iblk; rw [A_eq]
/-- The weights and the biases are fetched once and found at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The lanes inside the array do not see the words past it -/

/-- On the lanes the write-back moves, the stored block is the same whatever fills the sample buffer past the
    array's end: a stored entry reads the samples on its own lane, and a lane the result window moves is a lane the
    sample window's fetch filled. -/
theorem cut_stored_fill (t : Fin cfg0.N) (d d' : S4x65536.Idx → Elt F .f32)
    (g : ((cfg0.win 0).xblock (cfg0.grid.coords t)).Idx → Elt F .f32) (w : Vec F S32x4 .f32) (b : Vec F S32x1 .f32) :
    (cfg0.win 3).cut (cfg0.grid.coords t) (stored ((cfg0.win 0).fill (cfg0.grid.coords t) d g) w b)
      = (cfg0.win 3).cut (cfg0.grid.coords t) (stored ((cfg0.win 0).fill (cfg0.grid.coords t) d' g) w b) := by
  funext j
  show stored ((cfg0.win 0).fill (cfg0.grid.coords t) d g) w b ((cfg0.win 3).xinj (cfg0.grid.coords t) j)
    = stored ((cfg0.win 0).fill (cfg0.grid.coords t) d' g) w b ((cfg0.win 3).xinj (cfg0.grid.coords t) j)
  obtain ⟨p, q, hpq, hq⟩ : ∃ (p : Fin 32) (q : Fin 65536), (cfg0.win 3).xinj (cfg0.grid.coords t) j = ix2 p q
      ∧ q.val < (cfg0.win 0).xsize (cfg0.grid.coords t) 1 :=
    ⟨(cfg0.win 3).xinj (cfg0.grid.coords t) j 0, (cfg0.win 3).xinj (cfg0.grid.coords t) j 1, eq_ix2 _, by
      rw [(cuts t).2]; exact (j 1).isLt⟩
  rw [hpq, stored_eq, stored_eq]
  refine Entry.k0_pay1_lane _ _ w b p q fun r => ?_
  have hm : (cfg0.win 0).moved (cfg0.grid.coords t) (ix2 r q) = true :=
    ((cfg0.win 0).moved_iff _ _).mpr fun a => by
      match a with
      | ⟨0, _⟩ => show r.val < (cfg0.win 0).xsize (cfg0.grid.coords t) 0; rw [(cuts t).1]; exact r.isLt
      | ⟨1, _⟩ => exact hq
  unfold Window.fill
  rw [dif_pos hm, dif_pos hm]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two windows whose blocks may overhang are stated on the lanes their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point: the inputs' buffers hold their blocks (the samples' filled out past the array with what
    the fetch left), so `sound_kernel` applies; what it leaves agrees with the proof data on the moved lanes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show (cfg0.win 0).cut (cfg0.grid.coords t) (samples m c t) = iblk m c 0 t from (cfg0.win 0).cut_fill _ _ _]
    iexact H0
  isplitl [H1]; · iexact H1
  isplitl [H2]; · iexact H2
  · iexists stored ((cfg0.win 0).fill (cfg0.grid.coords t) d0 (iblk m c 0 t)) (iblk m c 1 t) (iblk m c 2 t)
    rw [show samples m c t = (cfg0.win 0).fill (cfg0.grid.coords t) (fun _ => Scalar.ofBits .f32 0#32) (iblk m c 0 t) from rfl,
      show (win0 3).fill (grid0.coords t)
          (stored ((cfg0.win 0).fill (cfg0.grid.coords t) d0 (iblk m c 0 t)) (iblk m c 1 t) (iblk m c 2 t))
          ((win0 3).cut (grid0.coords t)
            (stored ((cfg0.win 0).fill (cfg0.grid.coords t) (fun _ => Scalar.ofBits .f32 0#32) (iblk m c 0 t)) (iblk m c 1 t) (iblk m c 2 t)))
        = stored ((cfg0.win 0).fill (cfg0.grid.coords t) d0 (iblk m c 0 t)) (iblk m c 1 t) (iblk m c 2 t) from
        (cfg0.win 3).fill_congr_cut (cfg0.grid.coords t)
          (cut_stored_fill t d0 (fun _ => Scalar.ofBits .f32 0#32) (iblk m c 0 t) (iblk m c 1 t) (iblk m c 2 t))]
    iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer at what the last host line leaves from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.EntryIdeal.lean ====
/-
  One entry of the block the kernel body stores. The body holds a 4×65536 block `x` of the transposed samples
  (one feature per row, one sample per lane), the 32×4 weights `w` (one head per row) and the 32×1 biases `b`.
  It multiplies column `d` of `w`, spread over the lanes, by row `d` of `x`, spread over the heads, for
  `d = 0, 1, 2, 3`, adds the four products from the left and adds the bias column spread over the lanes. So at
  head `p` and lane `q` the stored value is

      (((w p 0 · x 0 q + w p 1 · x 1 q) + w p 2 · x 2 q) + w p 3 · x 3 q) + b p 0

  at any float instance: every operation of the body is a slice, a broadcast or a lane-wise product or sum.
  In particular the entry reads `x` at lane `q` only.
-/
import proofs.«159877_j29798483099653_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.ValueIdx

variable {F : FTy → Type} [FloatOps F]

/-- An `[a, 1]` column spread over `[a, b]` reads, at `(p, c)`, the column at row `p`. -/
theorem column_over_lanes {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The value the body stores at head `p` and lane `q`, from the three blocks it loaded. -/
def entry (x : Vec F S4x65536 .f32) (w : Vec F S32x4 .f32) (b : Vec F S32x1 .f32) (p : Fin 32) (q : Fin 65536) : F .f32 :=
  FloatOps.addf
    (FloatOps.addf
      (FloatOps.addf
        (FloatOps.addf
          (FloatOps.mulf (w (ix2 p (0 : Fin 4))) (x (ix2 (0 : Fin 4) q)))
          (FloatOps.mulf (w (ix2 p (1 : Fin 4))) (x (ix2 (1 : Fin 4) q))))
        (FloatOps.mulf (w (ix2 p (2 : Fin 4))) (x (ix2 (2 : Fin 4) q))))
      (FloatOps.mulf (w (ix2 p (3 : Fin 4))) (x (ix2 (3 : Fin 4) q))))
    (b (ix2 p (0 : Fin 1)))

/-- Column `d` of the weights spread over the lanes, read at `(p, q)`. -/
theorem weight_column (w : Vec F S32x4 .f32) (d : ℕ) (hd : d < 4) (hs : S32x4.Slices ![0, d] S32x1)
    (hb : S32x1.Broadcasts S32x65536) (p : Fin 32) (q : Fin 65536) :
    broadcastTo S32x65536 (extractStridedSlice S32x1 ![0, d] w hs) hb (ix2 p q) = w (ix2 p (⟨d, hd⟩ : Fin 4)) :=
  (column_over_lanes (a := 32) (b := 65536) _ hb p q).trans
    (slice2_axis1_apply (n0 := 32) (n1 := 4) (m := 1) d w hs p (0 : Fin 1) ⟨d, hd⟩ rfl)

/-- Row `d` of the sample block spread over the heads, read at `(p, q)`. -/
theorem sample_row (x : Vec F S4x65536 .f32) (d : ℕ) (hd : d < 4) (hs : S4x65536.Slices ![d, 0] S1x65536)
    (hb : S1x65536.Broadcasts S32x65536) (p : Fin 32) (q : Fin 65536) :
    broadcastTo S32x65536 (extractStridedSlice S1x65536 ![d, 0] x hs) hb (ix2 p q) = x (ix2 (⟨d, hd⟩ : Fin 4) q) :=
  (broadcastTo_1b_ab_apply (a := 32) (b := 65536) _ hb p q).trans
    (slice2_axis0_apply (n0 := 4) (n1 := 65536) (m := 1) d x hs (0 : Fin 1) q ⟨d, hd⟩ rfl)

/-- The stored block at head `p` and lane `q` is `entry` there. -/
theorem k0_pay1_entry (x : Vec F S4x65536 .f32) (w : Vec F S32x4 .f32) (b : Vec F S32x1 .f32) (p : Fin 32) (q : Fin 65536) :
    k0_pay1 x w b (ix2 p q) = entry x w b p q := by
  unfold k0_pay1 entry
  simp only [addf, mulf, shapeCast_self]
  rw [weight_column w 0 (by decide), weight_column w 1 (by decide), weight_column w 2 (by decide), weight_column w 3 (by decide),
    sample_row x 0 (by decide), sample_row x 1 (by decide), sample_row x 2 (by decide), sample_row x 3 (by decide),
    column_over_lanes (a := 32) (b := 65536) b _ p q]
  rfl

/-- Two sample blocks that agree on lane `q` give the same stored value on that lane. -/
theorem k0_pay1_lane (x x' : Vec F S4x65536 .f32) (w : Vec F S32x4 .f32) (b : Vec F S32x1 .f32) (p : Fin 32) (q : Fin 65536)
    (h : ∀ d : Fin 4, x (ix2 d q) = x' (ix2 d q)) : k0_pay1 x w b (ix2 p q) = k0_pay1 x' w b (ix2 p q) := by
  rw [k0_pay1_entry, k0_pay1_entry]
  unfold entry
  rw [h 0, h 1, h 2, h 3]

end Cert.KernelIdeal.Entry

end
-- ==== Proof.FrameIdeal.lean ====
/-
  The kernel body as the pipeline calls it at one grid point, and the pipeline's run around it.

  At a point the body finds, in the current staging buffers, a 4×65536 block of the transposed samples, the
  32×4 weights and the 32×1 biases, and stores one 32×65536 block of results: the three buffers it reads it
  leaves as it found them, and the result buffer ends at the stored block (`stored`, which is the body's one
  payload of the three loads). The grid's 31 blocks of 65536 lanes overhang the 2000000 samples: the last block
  has 33920 lanes inside the arrays, and past them the sample buffer holds words nothing names. A stored entry
  reads the samples on its own lane only (`Entry.k0_pay1_lane`), so on the lanes inside the array the stored
  block does not depend on those words — which is all the pipeline asks of a window whose blocks may overhang.
-/
import proofs.«159877_j29798483099653_1_alg».proof.Proof.Gen.KernelIdeal.Frame
import proofs.«159877_j29798483099653_1_alg».proof.Proof.Gen.KernelIdeal.Skeleton
import proofs.«159877_j29798483099653_1_alg».proof.Proof.EntryIdeal
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is its whole buffer -/

abbrev rx : Rect S4x65536 := Rect.unit (s := S4x65536) ![0, 0] S4x65536.size inb_S4x65536_S4x65536_0_0
abbrev rw_ : Rect S32x4 := Rect.unit (s := S32x4) ![0, 0] S32x4.size inb_S32x4_S32x4_0_0
abbrev rb : Rect S32x1 := Rect.unit (s := S32x1) ![0, 0] S32x1.size inb_S32x1_S32x1_0_0
abbrev ro : Rect S32x65536 := Rect.unit (s := S32x65536) ![0, 0] S32x65536.size inb_S32x65536_S32x65536_0_0

theorem hz : (![0, 0] : Fin 2 → Nat) = fun _ => 0 := funext fun a => by fin_cases a <;> rfl

/-- What the result buffer holds after the body, from what the three input buffers hold: its one store. -/
def stored (x : Vec F S4x65536 .f32) (w : Vec F S32x4 .f32) (b : Vec F S32x1 .f32) : Vec F S32x65536 .f32 :=
  View.canon [⟨ro, k0_pay1 (View.ld x rx) (View.ld w rw_) (View.ld b rb)⟩]

/-- The store and the loads are of whole buffers: the stored block is the payload of the buffers' contents. -/
theorem stored_eq (x : Vec F S4x65536 .f32) (w : Vec F S32x4 .f32) (b : Vec F S32x1 .f32) : stored x w b = k0_pay1 x w b := by
  unfold stored
  rw [View.canon_unit_zero hz]
  simp only [View.ld_unit_zero (S := S4x65536) hz, View.ld_unit_zero (S := S32x4) hz, View.ld_unit_zero (S := S32x1) hz]

set_option maxHeartbeats 1000000 in
/-- The body on whole staging memrefs, the inputs' at read contents and the result's at anything, runs to the
    continuation holding the inputs' as they were and the result's at `stored` of them. -/
theorem sound_kernel (c : Dev nD) (E : Set ℕ) (i : grid0.Coords)
    (arg1 : Memref sig .tc .vmem S4x65536 .f32) (harg1 : arg1.IsWhole) (arg2 : Memref sig .tc .vmem S32x4 .f32) (harg2 : arg2.IsWhole)
    (arg3 : Memref sig .tc .vmem S32x1 .f32) (harg3 : arg3.IsWhole) (arg4 : Memref sig .tc .vmem S32x65536 .f32) (harg4 : arg4.IsWhole)
    (x0 : Vec F S4x65536 .f32) (x1 : Vec F S32x4 .f32) (x2 : Vec F S32x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__dense_mlp_kernel i arg1 harg1 arg2 harg2 arg3 harg3 arg4 harg4) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero hz inb_S32x65536_S32x65536_0_0 y⟩)

/-! ## Where the blocks sit: the cuts at the arrays' end, decided over the grid -/

/-- The sample window keeps all four feature rows at every point and cuts its lanes exactly as the result window
    does; the result window keeps all 32 heads. -/
theorem cuts (t : Fin cfg0.N) :
    (cfg0.win 0).xsize (cfg0.grid.coords t) 0 = 4
      ∧ (cfg0.win 0).xsize (cfg0.grid.coords t) 1 = (cfg0.win 3).xsize (cfg0.grid.coords t) 1 :=
  (by decide +kernel : ∀ t : Fin grid0.N, win0_0.xsize (grid0.coords t) 0 = 4
      ∧ win0_0.xsize (grid0.coords t) 1 = win0_3.xsize (grid0.coords t) 1) t

/-! ## The pipeline's proof data -/

/-- The sample buffer's contents after the body at point `t`, as the proof data names them: the block of the
    transposed samples on the lanes inside the array, and a word of the proof's choosing past them (the pipeline asks
    nothing of those lanes). -/
def samples (c : Dev nD) (t : Fin cfg0.N) : S4x65536.Idx → Elt F .f32 :=
  (cfg0.win 0).fill (cfg0.grid.coords t) (fun _ => Scalar.ofBits .f32 0#32) (iblk m c 0 t)

/-- The proof data of the one pipeline on core `c`: the arrays as the region finds them; after the body at point
    `t` the sample buffer at `samples`, the weights' and biases' at their blocks, the result's at `stored` of those;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => samples m c t
    | ⟨1, _⟩ => iblk m c 1 t
    | ⟨2, _⟩ => iblk m c 2 t
    | ⟨3, _⟩ => stored (samples m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = samples m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (samples m c t) (iblk m c 1 t) (iblk m c 2 t) := by dsimp only [dats]

/-- The sample window is fetched at every point: the body finds the block on the lanes inside the array and, past
    them, whatever the fetch's overwrite left (`d`). -/
theorem before_0 (c : Dev nD) (t : Fin cfg0.N) (d) :
    (dats m 0 c).before 0 t d = (cfg0.win 0).fill (cfg0.grid.coords t) d (iblk m c 0 t) := by
  unfold Dat.before; rw [if_pos (fetch0_0 t)]
  unfold Dat.fetched Dat.blockOf iblk; rw [A_eq]
/-- The weights and the biases are fetched once and found at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The lanes inside the array do not see the words past it -/

/-- On the lanes the write-back moves, the stored block is the same whatever fills the sample buffer past the
    array's end: a stored entry reads the samples on its own lane, and a lane the result window moves is a lane the
    sample window's fetch filled. -/
theorem cut_stored_fill (t : Fin cfg0.N) (d d' : S4x65536.Idx → Elt F .f32)
    (g : ((cfg0.win 0).xblock (cfg0.grid.coords t)).Idx → Elt F .f32) (w : Vec F S32x4 .f32) (b : Vec F S32x1 .f32) :
    (cfg0.win 3).cut (cfg0.grid.coords t) (stored ((cfg0.win 0).fill (cfg0.grid.coords t) d g) w b)
      = (cfg0.win 3).cut (cfg0.grid.coords t) (stored ((cfg0.win 0).fill (cfg0.grid.coords t) d' g) w b) := by
  funext j
  show stored ((cfg0.win 0).fill (cfg0.grid.coords t) d g) w b ((cfg0.win 3).xinj (cfg0.grid.coords t) j)
    = stored ((cfg0.win 0).fill (cfg0.grid.coords t) d' g) w b ((cfg0.win 3).xinj (cfg0.grid.coords t) j)
  obtain ⟨p, q, hpq, hq⟩ : ∃ (p : Fin 32) (q : Fin 65536), (cfg0.win 3).xinj (cfg0.grid.coords t) j = ix2 p q
      ∧ q.val < (cfg0.win 0).xsize (cfg0.grid.coords t) 1 :=
    ⟨(cfg0.win 3).xinj (cfg0.grid.coords t) j 0, (cfg0.win 3).xinj (cfg0.grid.coords t) j 1, eq_ix2 _, by
      rw [(cuts t).2]; exact (j 1).isLt⟩
  rw [hpq, stored_eq, stored_eq]
  refine Entry.k0_pay1_lane _ _ w b p q fun r => ?_
  have hm : (cfg0.win 0).moved (cfg0.grid.coords t) (ix2 r q) = true :=
    ((cfg0.win 0).moved_iff _ _).mpr fun a => by
      match a with
      | ⟨0, _⟩ => show r.val < (cfg0.win 0).xsize (cfg0.grid.coords t) 0; rw [(cuts t).1]; exact r.isLt
      | ⟨1, _⟩ => exact hq
  unfold Window.fill
  rw [dif_pos hm, dif_pos hm]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two windows whose blocks may overhang are stated on the lanes their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point: the inputs' buffers hold their blocks (the samples' filled out past the array with what
    the fetch left), so `sound_kernel` applies; what it leaves agrees with the proof data on the moved lanes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show (cfg0.win 0).cut (cfg0.grid.coords t) (samples m c t) = iblk m c 0 t from (cfg0.win 0).cut_fill _ _ _]
    iexact H0
  isplitl [H1]; · iexact H1
  isplitl [H2]; · iexact H2
  · iexists stored ((cfg0.win 0).fill (cfg0.grid.coords t) d0 (iblk m c 0 t)) (iblk m c 1 t) (iblk m c 2 t)
    rw [show samples m c t = (cfg0.win 0).fill (cfg0.grid.coords t) (fun _ => Scalar.ofBits .f32 0#32) (iblk m c 0 t) from rfl,
      show (win0 3).fill (grid0.coords t)
          (stored ((cfg0.win 0).fill (cfg0.grid.coords t) d0 (iblk m c 0 t)) (iblk m c 1 t) (iblk m c 2 t))
          ((win0 3).cut (grid0.coords t)
            (stored ((cfg0.win 0).fill (cfg0.grid.coords t) (fun _ => Scalar.ofBits .f32 0#32) (iblk m c 0 t)) (iblk m c 1 t) (iblk m c 2 t)))
        = stored ((cfg0.win 0).fill (cfg0.grid.coords t) d0 (iblk m c 0 t)) (iblk m c 1 t) (iblk m c 2 t) from
        (cfg0.win 3).fill_congr_cut (cfg0.grid.coords t)
          (cut_stored_fill t d0 (fun _ => Scalar.ofBits .f32 0#32) (iblk m c 0 t) (iblk m c 1 t) (iblk m c 2 t))]
    iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer at what the last host line leaves from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Heads.lean ====
/-
  What both programs compute. There are 32 heads, each an affine map of a sample's four features to one number:
  head `k` of sample `n` is

      (((W k 0 0 · x n 0 + W k 0 1 · x n 1) + W k 0 2 · x n 2) + W k 0 3 · x n 3) + b k 0

  on the extended reals, with `x` the 2000000×4 samples, `W` the 32×1×4 weights and `b` the 32×1 biases.
  The result is this number laid out head-major: as a 32×2000000 table, and with a trailing axis of one.
  The four products are added from the left; a sum over the four features in any other grouping is the same
  extended real, addition there being associative and commutative with no side condition.
-/
import Idealize.ShloMosaic.PureOps.Ideal
import Idealize.ShloMosaic.Lib.ValueIdx

noncomputable section

namespace Cert.Heads

open Idealize.ShloMosaic Idealize.ShloMosaic.ValueIdx

/-- Head `k` of sample `n`. -/
def head (x : (⟨2, ![2000000, 4]⟩ : Shape).Idx → EReal) (W : (⟨3, ![32, 1, 4]⟩ : Shape).Idx → EReal)
    (b : (⟨2, ![32, 1]⟩ : Shape).Idx → EReal) (k : Fin 32) (n : Fin 2000000) : EReal :=
  W (ix3 k (0 : Fin 1) (0 : Fin 4)) * x (ix2 n (0 : Fin 4)) + W (ix3 k (0 : Fin 1) (1 : Fin 4)) * x (ix2 n (1 : Fin 4))
    + W (ix3 k (0 : Fin 1) (2 : Fin 4)) * x (ix2 n (2 : Fin 4)) + W (ix3 k (0 : Fin 1) (3 : Fin 4)) * x (ix2 n (3 : Fin 4))
    + b (ix2 k (0 : Fin 1))

/-- The heads as a 32×2000000 table. -/
def table (x : (⟨2, ![2000000, 4]⟩ : Shape).Idx → EReal) (W : (⟨3, ![32, 1, 4]⟩ : Shape).Idx → EReal)
    (b : (⟨2, ![32, 1]⟩ : Shape).Idx → EReal) : (⟨2, ![32, 2000000]⟩ : Shape).Idx → EReal :=
  fun i => head x W b ⟨(i 0).val, (i 0).isLt⟩ ⟨(i 1).val, (i 1).isLt⟩

/-- The same with a trailing axis of one: the shape of both programs' result. -/
def result (x : (⟨2, ![2000000, 4]⟩ : Shape).Idx → EReal) (W : (⟨3, ![32, 1, 4]⟩ : Shape).Idx → EReal)
    (b : (⟨2, ![32, 1]⟩ : Shape).Idx → EReal) : (⟨3, ![32, 2000000, 1]⟩ : Shape).Idx → EReal :=
  fun i => head x W b ⟨(i 0).val, (i 0).isLt⟩ ⟨(i 1).val, (i 1).isLt⟩

end Cert.Heads

end
-- ==== Proof.KernelHeads.lean ====
/-
  What the idealized kernel leaves in its result array: the heads.

  Before the region two host lines lay the arguments out for the kernel: the samples transposed to 4×2000000 (one
  feature per row) and the weights recast from 32×1×4 to 32×4. The region runs the body over 31 blocks of 65536
  samples; block `t` covers samples `65536·t` onwards, and the last one only 33920 of them. On a lane inside the
  array, the entry the body stores at head `p` is head `p` of that lane's sample; each point writes back its lanes
  inside the array, and together the 31 blocks cover all 2000000 samples, so the 32×2000000 table ends at
  `Heads.table`. After the region one host line adds a trailing axis of one: `Heads.result`.
-/
import proofs.«159877_j29798483099653_1_alg».proof.Proof.FrameIdeal
import proofs.«159877_j29798483099653_1_alg».proof.Proof.Heads
import Idealize.ShloMosaic.Lib.StableHlo.Run
import Idealize.ShloMosaic.Lib.ValueLayout

set_option maxRecDepth 16384

noncomputable section

namespace Cert.KernelIdeal.Out

open Cert.KernelIdeal Cert.KernelIdeal.Gen Cert.KernelIdeal.Body
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays the region finds -/

/-- The region finds the samples transposed, -/
theorem entry_samples (c : Dev nD) :
    (V m c main_v0 : S4x2000000.Idx → EReal)
      = transpose S4x2000000 [1, 0] (m ((c : Thread nD τ).loc main_arg0)) transposes_S2000000x4_S4x2000000_1_0 := by
  show StableHlo.after hostOps0 (fun b => m (c, b)) (Proc.devRef .tc main_v0) = _
  after_results

/-- and the weights recast to 32×4. -/
theorem entry_weights (c : Dev nD) :
    (V m c main_v1 : S32x4.Idx → EReal)
      = shapeCast S32x4 (m ((c : Thread nD τ).loc main_arg1)) shapeCasts_S32x1x4_S32x4 := by
  show StableHlo.after hostOps0 (fun b => m (c, b)) (Proc.devRef .tc main_v1) = _
  after_results
  rfl

/-- Feature `d` of sample `n`, as the region finds it. -/
theorem entry_samples_at (c : Dev nD) (d : Fin 4) (n : Fin 2000000) :
    (V m c main_v0 : S4x2000000.Idx → EReal) (ix2 d n) = m ((c : Thread nD τ).loc main_arg0) (ix2 n d) := by
  rw [entry_samples]
  exact transpose_ix2_apply (a := 2000000) (b := 4) _ _ d n

/-- Weight `d` of head `k`, as the region finds it. -/
theorem entry_weights_at (c : Dev nD) (k : Fin 32) (d : Fin 4) :
    (V m c main_v1 : S32x4.Idx → EReal) (ix2 k d) = m ((c : Thread nD τ).loc main_arg1) (ix3 k (0 : Fin 1) d) := by
  rw [entry_weights]
  refine shapeCast_apply _ shapeCasts_S32x1x4_S32x4 (ix2 k d) (ix3 k (0 : Fin 1) d) ?_
  rw [Shape.rowMajor_val_three, Shape.rowMajor_val_two]
  show (k.val * 1 + 0) * 4 + d.val = k.val * 4 + d.val
  omega

/-! ## Where the blocks sit, decided over the grid -/

/-- Block `t` of the samples and of the results starts at lane `65536·t` and keeps every row; the weights' and the
    biases' one block is the whole array; and the lanes block `t` has inside the array are the first
    `min 65536 (2000000 - 65536·t)`. -/
theorem places : ∀ t : Fin cfg0.N,
    win0_0.index t (0 : Fin 2) = 0 ∧ win0_0.index t (1 : Fin 2) = t.val
      ∧ win0_1.index t (0 : Fin 2) = 0 ∧ win0_1.index t (1 : Fin 2) = 0
      ∧ win0_2.index t (0 : Fin 2) = 0 ∧ win0_2.index t (1 : Fin 2) = 0
      ∧ win0_3.index t (0 : Fin 2) = 0 ∧ win0_3.index t (1 : Fin 2) = t.val
      ∧ win0_3.xsize (grid0.coords t) (0 : Fin 2) = 32
      ∧ win0_3.xsize (grid0.coords t) (1 : Fin 2) = min 65536 (2000000 - 65536 * t.val) :=
  (by decide +kernel : ∀ t : Fin grid0.N, _)

/-! ## The blocks the body reads, at an entry -/

/-- Feature `r` at lane `q` of block `t`, for a lane inside the array: sample `65536·t + q`. -/
theorem samples_at (c : Dev nD) (t : Fin cfg0.N) (r : Fin 4) (q : Fin 65536)
    (hq : q.val < (cfg0.win 0).xsize (cfg0.grid.coords t) 1) (n : Fin 2000000) (hn : n.val = 65536 * t.val + q.val) :
    samples m c t (ix2 r q) = m ((c : Thread nD τ).loc main_arg0) (ix2 n r) := by
  have hm : (cfg0.win 0).moved (cfg0.grid.coords t) (ix2 r q) = true :=
    ((cfg0.win 0).moved_iff _ _).mpr fun a => by
      match a with
      | ⟨0, _⟩ => show r.val < (cfg0.win 0).xsize (cfg0.grid.coords t) 0; rw [(cuts t).1]; exact r.isLt
      | ⟨1, _⟩ => exact hq
  unfold samples Window.fill
  rw [dif_pos hm, ← entry_samples_at m c r n]
  show (V m c main_v0 : S4x2000000.Idx → EReal) (((cfg0.win 0).blk t).view.emb _) = _
  refine congrArg _ (funext fun a => Fin.ext ?_)
  obtain ⟨e0, e1, -⟩ := places t
  match a with
  | ⟨0, _⟩ => show win0_0.index t (0 : Fin 2) * 4 + 1 * r.val = r.val; omega
  | ⟨1, _⟩ => show win0_0.index t (1 : Fin 2) * 65536 + 1 * q.val = n.val; omega

/-- Weight `d` of head `k` in the weights' block (the whole 32×4 array at every point). -/
theorem weights_at (c : Dev nD) (t : Fin cfg0.N) (k : Fin 32) (d : Fin 4) :
    iblk m c 1 t (ix2 k d) = m ((c : Thread nD τ).loc main_arg1) (ix3 k (0 : Fin 1) d) := by
  rw [← entry_weights_at m c k d]
  show (V m c main_v1 : S32x4.Idx → EReal) (((cfg0.win 1).blk t).view.emb (ix2 k d)) = _
  refine congrArg _ (funext fun a => Fin.ext ?_)
  obtain ⟨-, -, e2, e3, -⟩ := places t
  match a with
  | ⟨0, _⟩ => show win0_1.index t (0 : Fin 2) * 32 + 1 * k.val = k.val; omega
  | ⟨1, _⟩ => show win0_1.index t (1 : Fin 2) * 4 + 1 * d.val = d.val; omega

/-- The bias of head `k` in the biases' block (the whole 32×1 array at every point). -/
theorem bias_at (c : Dev nD) (t : Fin cfg0.N) (k : Fin 32) :
    iblk m c 2 t (ix2 k (0 : Fin 1)) = m ((c : Thread nD τ).loc main_arg2) (ix2 k (0 : Fin 1)) := by
  rw [← V_main_arg2 m c]
  show (V m c main_arg2 : S32x1.Idx → EReal) (((cfg0.win 2).blk t).view.emb (ix2 k (0 : Fin 1))) = _
  refine congrArg _ (funext fun a => Fin.ext ?_)
  obtain ⟨-, -, -, -, e4, e5, -⟩ := places t
  match a with
  | ⟨0, _⟩ => show win0_2.index t (0 : Fin 2) * 32 + 1 * k.val = k.val; omega
  | ⟨1, _⟩ => show win0_2.index t (1 : Fin 2) * 1 + 1 * 0 = 0; omega

/-! ## What a point writes back -/

/-- Point `t` writes back block `t` of the heads' table: on a lane inside the array the stored entry at head `p` is
    head `p` of that lane's sample. -/
theorem flushed_eq (c : Dev nD) (t : Fin cfg0.N) :
    (dats m 0 c).flushed 3 t = ((cfg0.win 3).blk t).view.read (Elt Ideal)
      (Cert.Heads.table (m ((c : Thread nD τ).loc main_arg0)) (m ((c : Thread nD τ).loc main_arg1)) (m ((c : Thread nD τ).loc main_arg2))) := by
  show (cfg0.win 3).cut (grid0.coords t) ((dats m 0 c).after 3 t) = _
  rw [after_3, stored_eq]
  funext j
  obtain ⟨e0, e1, e2, e3, e4, e5, e6, e7, e8, e9⟩ := places t
  have hj0 : (j 0).val < 32 := lt_of_lt_of_eq (j 0).isLt e8
  have hj1' : (j 1).val < min 65536 (2000000 - 65536 * t.val) := lt_of_lt_of_eq (j 1).isLt e9
  have hj1 : (j 1).val < 65536 := by omega
  have hn : 65536 * t.val + (j 1).val < 2000000 := by omega
  have hq : (j 1).val < (cfg0.win 0).xsize (cfg0.grid.coords t) 1 := by rw [(cuts t).2]; exact (j 1).isLt
  have hx : (cfg0.win 3).xinj (cfg0.grid.coords t) j = ix2 (⟨(j 0).val, hj0⟩ : Fin 32) (⟨(j 1).val, hj1⟩ : Fin 65536) :=
    funext fun a => Fin.ext (by
      match a with
      | ⟨0, _⟩ => rfl
      | ⟨1, _⟩ => rfl)
  have hy : ((cfg0.win 3).blk t).view.emb j
      = (ix2 (⟨(j 0).val, hj0⟩ : Fin 32) (⟨65536 * t.val + (j 1).val, hn⟩ : Fin 2000000) : S32x2000000.Idx) :=
    funext fun a => Fin.ext (by
      match a with
      | ⟨0, _⟩ => show win0_3.index t (0 : Fin 2) * 32 + 1 * (j 0).val = (j 0).val; omega
      | ⟨1, _⟩ => show win0_3.index t (1 : Fin 2) * 65536 + 1 * (j 1).val = 65536 * t.val + (j 1).val; omega)
  show k0_pay1 (samples m c t) (iblk m c 1 t) (iblk m c 2 t) ((cfg0.win 3).xinj (cfg0.grid.coords t) j)
    = Cert.Heads.table _ _ _ (((cfg0.win 3).blk t).view.emb j)
  rw [hx, hy, Entry.k0_pay1_entry]
  unfold Entry.entry Cert.Heads.table Cert.Heads.head
  rw [samples_at m c t 0 _ hq ⟨65536 * t.val + (j 1).val, hn⟩ rfl, samples_at m c t 1 _ hq ⟨65536 * t.val + (j 1).val, hn⟩ rfl,
    samples_at m c t 2 _ hq ⟨65536 * t.val + (j 1).val, hn⟩ rfl, samples_at m c t 3 _ hq ⟨65536 * t.val + (j 1).val, hn⟩ rfl,
    weights_at m c t _ 0, weights_at m c t _ 1, weights_at m c t _ 2, weights_at m c t _ 3, bias_at m c t _]
  simp only [Ideal.addf_def, Ideal.mulf_def]

/-! ## The blocks cover the table -/

/-- An entry of the table is in point `t`'s block iff each coordinate is among the block's coordinates inside the array. -/
theorem mem_blk (t : Fin cfg0.N) (i : S32x2000000.Idx) :
    i ∈ ((cfg0.win 3).blk t).view.set ↔ ∀ a : Fin 2, win0_3.index t a * S32x65536.size a ≤ (i a).val
      ∧ (i a).val < win0_3.index t a * S32x65536.size a + win0_3.xsize (grid0.coords t) a := by
  show i ∈ ((View.whole main_v2).slice (win0_3.rect t)).set ↔ _
  rw [View.set_slice_whole, Rect.mem_set_unit]
  exact Iff.rfl

/-- Sample `n` lies in block `n / 65536`, cut or not: every entry of the table is written back by some point. -/
theorem covered (i : S32x2000000.Idx) :
    ∃ t : Fin cfg0.N, (cfg0.win 3).flush t = true ∧ i ∈ ((cfg0.win 3).blk t).view.set := by
  have hi0 : (i 0).val < 32 := (i 0).isLt
  have hi1 : (i 1).val < 2000000 := (i 1).isLt
  obtain ⟨t, ht⟩ : ∃ t : Fin cfg0.N, t.val = (i 1).val / 65536 :=
    ⟨⟨(i 1).val / 65536, lt_of_lt_of_eq (by omega : (i 1).val / 65536 < 31) N_0.symm⟩, rfl⟩
  refine ⟨t, flush0_3 t, (mem_blk t i).mpr fun a => ?_⟩
  obtain ⟨-, -, -, -, -, -, e6, e7, e8, e9⟩ := places t
  match a with
  | ⟨0, _⟩ =>
    show win0_3.index t (0 : Fin 2) * 32 ≤ (i 0).val
      ∧ (i 0).val < win0_3.index t (0 : Fin 2) * 32 + win0_3.xsize (grid0.coords t) (0 : Fin 2)
    rw [e6, e8]; omega
  | ⟨1, _⟩ =>
    show win0_3.index t (1 : Fin 2) * 65536 ≤ (i 1).val
      ∧ (i 1).val < win0_3.index t (1 : Fin 2) * 65536 + win0_3.xsize (grid0.coords t) (1 : Fin 2)
    rw [e7, e9, ht]; omega

/-- The 32×2000000 result table after the region: the heads. -/
theorem final (c : Dev nD) :
    (dats m 0 c).arrAt 3 cfg0.N
      = Cert.Heads.table (m ((c : Thread nD τ).loc main_arg0)) (m ((c : Thread nD τ).loc main_arg1)) (m ((c : Thread nD τ).loc main_arg2)) :=
  (dats m 0 c).arrAt_eq_of_cover 3 _ (fun t _ => flushed_eq m c t) covered

/-! ## The host line after the region, and the run -/

/-- The last host line adds a trailing axis of one to the table: the result is the heads. -/
theorem tail (c : Dev nD) :
    Pipeline.afterTail₀ cfgs (dats m) 0 (V0 m) [hostOps1] c main_v3
      = Cert.Heads.result (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2) = _ from
    (Pipeline.withArrays_arr spec0 launch0.win.arr_inj c _ _ 3).trans (final m c)]
  funext i
  refine (broadcastInDim_apply _ bcast_S32x2000000_S32x2000000x1_0_1 _ i
    (ix2 (⟨(i 0).val, (i 0).isLt⟩ : Fin 32) (⟨(i 1).val, (i 1).isLt⟩ : Fin 2000000)) fun a => ?_).trans rfl
  match a with
  | ⟨0, _⟩ => show (i 0).val = if (32 : ℕ) = 1 then 0 else (i 0).val; rw [if_neg (by decide)]
  | ⟨1, _⟩ => show (i 1).val = if (2000000 : ℕ) = 1 then 0 else (i 1).val; rw [if_neg (by decide)]

/-- At the compiled mesh, from any memory with zero counters: every weakly fair execution of the idealized kernel's
    @main terminates with the result array at the heads of the launched arguments, and the arguments unchanged. -/
theorem run : θ_run defs (onTc (τ := τ) (main (F := Ideal))) ⟨m, fun _ => 0, ρ⟩ fun r => ∀ c : Dev nD,
      r.2.mem ((c : Thread nD τ).loc main_v3)
        = Cert.Heads.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v3 (Pipeline.mem_restRefs_of main_v3 (by decide) (by decide))).trans (tail m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.KernelIdeal.Out

end
-- ==== Proof.RefHeads.lean ====
/-
  The reference computes the heads. Its five host operations are: the contraction of the weights with the samples
  over the four features (entry `(k, 0, n)` is the sum over `d` of `W k 0 d · x n d`), the exchange of the last two
  axes, the biases spread first to 32×1×1 and then over the samples, and the sum of the two. Read at an index
  `(k, n, 0)` that is `(Σ_d W k 0 d · x n d) + b k 0`; the sum over the four features written out from the left is
  `Heads.head`.
-/
import proofs.«159877_j29798483099653_1_alg».proof.Proof.Gen.ReferenceIdeal.Read
import proofs.«159877_j29798483099653_1_alg».proof.Proof.Heads

noncomputable section

namespace Cert.ReferenceIdeal.RefHeads

open Cert.ReferenceIdeal Cert.ReferenceIdeal.Gen Cert.ReferenceIdeal.Read Idealize.ShloMosaic Idealize.ShloMosaic.ValueIdx

/-- The weight the contraction reads for result entry `i` at feature `d`: head `i 0`, feature `d`. -/
theorem weight_idx (i : S32x2000000x1.Idx) (d : Fin 4) :
    lidx_main_v0 (idx_main_v1 i) d = ix3 (⟨(i 0).val, (i 0).isLt⟩ : Fin 32) (0 : Fin 1) d :=
  funext fun a => Fin.ext (by
    match a with
    | ⟨0, _⟩ => rfl
    | ⟨1, _⟩ =>
      show (i 2).val = 0
      have h : (i 2).val < 1 := (i 2).isLt
      omega
    | ⟨2, _⟩ => rfl)

/-- The sample it reads: sample `i 1`, feature `d`. -/
theorem sample_idx (i : S32x2000000x1.Idx) (d : Fin 4) :
    ridx_main_v0 (idx_main_v1 i) d = ix2 (⟨(i 1).val, (i 1).isLt⟩ : Fin 2000000) d :=
  funext fun a => Fin.ext (by
    match a with
    | ⟨0, _⟩ => rfl
    | ⟨1, _⟩ => rfl)

/-- The bias the two broadcasts read: head `i 0`. -/
theorem bias_idx (i : S32x2000000x1.Idx) :
    idx_main_v2 (idx_main_v3 i) = ix2 (⟨(i 0).val, (i 0).isLt⟩ : Fin 32) (0 : Fin 1) :=
  funext fun a => Fin.ext (by
    match a with
    | ⟨0, _⟩ => rfl
    | ⟨1, _⟩ => rfl)

/-- The reference's last stage is the heads, index by index. -/
theorem val_eq_result (x : (⟨S2000000x4, .f32⟩ : BufTy).Contents (Elt Ideal)) (W : (⟨S32x1x4, .f32⟩ : BufTy).Contents (Elt Ideal))
    (b : (⟨S32x1, .f32⟩ : BufTy).Contents (Elt Ideal)) :
    val_main_v4 (F := Ideal) x W b = Cert.Heads.result x W b := by
  funext i
  rw [val_main_v4_apply, val_main_v1_apply, val_main_v0_apply, val_main_v3_apply, val_main_v2_apply, Fin.sum_univ_four]
  simp only [weight_idx, sample_idx, bias_idx, Ideal.addf_def]
  rfl

end Cert.ReferenceIdeal.RefHeads

end
-- ==== Proof.lean ====
/-
  The proof of `Cert.Claim` (proofs.«159877_j29798483099653_1_alg».proof.Defs): the three frames, `preserves` and `algebraic`.

  The kernel computes 32 affine heads of 2000000 four-feature samples, 65536 samples to a block, the last block
  overhanging the arrays; the reference computes the same by one contraction over the features, a transposition and
  a broadcast sum. On the extended reals both results are, at head `k` and sample `n`,

      (((W k 0 0 · x n 0 + W k 0 1 · x n 1) + W k 0 2 · x n 2) + W k 0 3 · x n 3) + b k 0

  (`Heads.head`): the kernel adds the four products from the left in exactly this order, and the reference's sum
  over the four features, written out, is the same expression. No law beyond that is used, so the precondition
  (finite inputs) is never opened.

  Frames: the kernel's two programs run under the pipeline's launch theorem for host lines, a region, host lines, with
  the body's triple at each of the 31 points (Proof/FrameBits.lean at the word level, Proof/FrameIdeal.lean at the
  extended reals); the reference's frame is its run with the result dropped. `preserves`: the idealization rewrote
  nothing, and the conjunct is `True`. `algebraic`: Proof/KernelHeads.lean (the kernel's result array is the heads)
  against Proof/RefHeads.lean (the reference's last stage is the heads), the arguments agreeing.
-/
import proofs.«159877_j29798483099653_1_alg».proof.Defs
import proofs.«159877_j29798483099653_1_alg».proof.Proof.Gen.Kernel
import proofs.«159877_j29798483099653_1_alg».proof.Proof.Gen.KernelIdeal
import proofs.«159877_j29798483099653_1_alg».proof.Proof.Gen.ReferenceIdeal
import proofs.«159877_j29798483099653_1_alg».proof.Proof.Gen.Pre_finite_inputs
import proofs.«159877_j29798483099653_1_alg».proof.Proof.Gen.ReferenceIdeal.Run
import proofs.«159877_j29798483099653_1_alg».proof.Proof.Gen.ReferenceIdeal.Read
import proofs.«159877_j29798483099653_1_alg».proof.Proof.FrameBits
import proofs.«159877_j29798483099653_1_alg».proof.Proof.KernelHeads
import proofs.«159877_j29798483099653_1_alg».proof.Proof.RefHeads
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Body.frame m ρ

/-- So does the idealized kernel. -/
theorem frame_kernel_ideal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the arguments, end with the result array at the heads of those
    arguments. -/
theorem algebraic : Cert.algebraic_KernelIdeal_ReferenceIdeal := by
  intro m ρ m' ρ' _ hagree
  refine ⟨fun c => Cert.Heads.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Out.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefHeads.val_eq_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
